-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x50 : Shape := ⟨3, ![512, 256, 50]⟩
abbrev S512x256x256 : Shape := ⟨3, ![512, 256, 256]⟩
abbrev S50x50 : Shape := ⟨2, ![50, 50]⟩
abbrev S50 : Shape := ⟨1, ![50]⟩
abbrev S_ : Shape := ⟨0, ![]⟩

class Facts : Prop where
  bcast_S_S512x256x50 : S_.BroadcastsInDim S512x256x50 (![] : Fin 0 → Fin S512x256x50.rank)
  reducesTo_S512x256x50_S_d0_1_2 : S512x256x50.ReducesTo [0, 1, 2] S_
  h_S_ : 0 < S_.numel
  bcast_S_S512x256x256 : S_.BroadcastsInDim S512x256x256 (![] : Fin 0 → Fin S512x256x256.rank)
  reducesTo_S512x256x256_S_d0_1_2 : S512x256x256.ReducesTo [0, 1, 2] S_
  bcast_S_S50x50 : S_.BroadcastsInDim S50x50 (![] : Fin 0 → Fin S50x50.rank)
  reducesTo_S50x50_S_d0_1 : S50x50.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  main_v18

def fn {F : FTy → Type} [FloatOps F] (main_arg0 : FVec F S512x256x50 .f32) (main_arg1 : FVec F S512x256x256 .f32) (main_arg2 : FVec F S50x50 .f32) (main_arg3 : FVec F S50 .f32) : IVec S_ 1 :=
  let main_v0 : FVec F S512x256x50 .f32 := Host.absf main_arg0
  let main_cst : FVec F S_ .f32 := constant S_ .f32 0x7F800000#32
  let main_v1 : FVec F S512x256x50 .f32 := broadcastInDim S512x256x50 ![] bcast_S_S512x256x50 main_cst
  let main_v2 : IVec S512x256x50 1 := cmpf .olt main_v0 main_v1
  let main_c : IVec S_ 1 := constantI S_ 1 1#1
  let main_v3 : IVec S_ 1 := (fun x v => Host.reduce IntOp.andi x v reducesTo_S512x256x50_S_d0_1_2 h_S_) main_v2 main_c
  let main_v4 : FVec F S512x256x256 .f32 := Host.absf main_arg1
  let main_cst_0 : FVec F S_ .f32 := constant S_ .f32 0x7F800000#32
  let main_v5 : FVec F S512x256x256 .f32 := broadcastInDim S512x256x256 ![] bcast_S_S512x256x256 main_cst_0
  let main_v6 : IVec S512x256x256 1 := cmpf .olt main_v4 main_v5
  let main_c_1 : IVec S_ 1 := constantI S_ 1 1#1
  let main_v7 : IVec S_ 1 := (fun x v => Host.reduce IntOp.andi x v reducesTo_S512x256x256_S_d0_1_2 h_S_) main_v6 main_c_1
  let main_v8 : IVec S_ 1 := andi main_v3 main_v7
  let main_v9 : FVec F S50x50 .f32 := Host.absf main_arg2
  let main_cst_2 : FVec F S_ .f32 := constant S_ .f32 0x7F800000#32
  let main_v10 : FVec F S50x50 .f32 := broadcastInDim S50x50 ![] bcast_S_S50x50 main_cst_2
  let main_v11 : IVec S50x50 1 := cmpf .olt main_v9 main_v10
  let main_c_3 : IVec S_ 1 := constantI S_ 1 1#1
  let main_v12 : IVec S_ 1 := (fun x v => Host.reduce IntOp.andi x v reducesTo_S50x50_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_v13 main_v16
-- ==== Kernel.lean ====
abbrev S512x256x50 : Shape := ⟨3, ![512, 256, 50]⟩
abbrev S512x256x256 : Shape := ⟨3, ![512, 256, 256]⟩
abbrev S50x50 : Shape := ⟨2, ![50, 50]⟩
abbrev S50 : Shape := ⟨1, ![50]⟩
abbrev S16x256x256 : Shape := ⟨3, ![16, 256, 256]⟩
abbrev S16x256x50 : Shape := ⟨3, ![16, 256, 50]⟩
abbrev S4096x50 : Shape := ⟨2, ![4096, 50]⟩
abbrev S1x1x50 : Shape := ⟨3, ![1, 1, 50]⟩

abbrev nBuf : Space → Nat
  | .hbm => 6
  | .vmem => 8
  | .smem => 0
  | _ => 0

abbrev bufTy : (tb : Table) → Fin (tcTables nBuf tb) → BufTy
  | .hbm, ⟨0, _⟩ => ⟨S512x256x50, .f32⟩
  | .hbm, ⟨1, _⟩ => ⟨S512x256x256, .f32⟩
  | .hbm, ⟨2, _⟩ => ⟨S50x50, .f32⟩
  | .hbm, ⟨3, _⟩ => ⟨S50, .f32⟩
  | .hbm, ⟨4, _⟩ => ⟨S50x50, .f32⟩
  | .hbm, ⟨5, _⟩ => ⟨S512x256x50, .f32⟩
  | .local _ .vmem, ⟨0, _⟩ => ⟨S16x256x256, .f32⟩
  | .local _ .vmem, ⟨1, _⟩ => ⟨S16x256x256, .f32⟩
  | .local _ .vmem, ⟨2, _⟩ => ⟨S16x256x50, .f32⟩
  | .local _ .vmem, ⟨3, _⟩ => ⟨S16x256x50, .f32⟩
  | .local _ .vmem, ⟨4, _⟩ => ⟨S50x50, .f32⟩
  | .local _ .vmem, ⟨5, _⟩ => ⟨S50, .f32⟩
  | .local _ .vmem, ⟨6, _⟩ => ⟨S16x256x50, .f32⟩
  | .local _ .vmem, ⟨7, _⟩ => ⟨S16x256x50, .f32⟩
  | _, _ => ⟨S512x256x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S50x50_S50x50_1_0 : S50x50.Transposes [1, 0] S50x50
  inb_S16x256x256_S16x256x256_0_0_0 : ∀ a, (![0, 0, 0] : Fin 3 → Nat) a + S16x256x256.size a ≤ S16x256x256.size a
  h_S16x256x256 : 0 < S16x256x256.numel
  bitsLt_bf16_f32 : FTy.bits .bf16 < FTy.bits .f32
  inb_S16x256x50_S16x256x50_0_0_0 : ∀ a, (![0, 0, 0] : Fin 3 → Nat) a + S16x256x50.size a ≤ S16x256x50.size a
  h_S16x256x50 : 0 < S16x256x50.numel
  inb_S50x50_S50x50_0_0 : ∀ a, (![0, 0] : Fin 2 → Nat) a + S50x50.size a ≤ S50x50.size a
  h_S50x50 : 0 < S50x50.numel
  shapeCasts_S50x50_S50x50 : S50x50.ShapeCasts S50x50
  shapeCasts_S16x256x50_S4096x50 : S16x256x50.ShapeCasts S4096x50
  shapeCasts_S4096x50_S16x256x50 : S4096x50.ShapeCasts S16x256x50
  inb_S50_S50_0 : ∀ a, (![0] : Fin 1 → Nat) a + S50.size a ≤ S50.size a
  h_S50 : 0 < S50.numel
  shapeCasts_S50_S1x1x50 : S50.ShapeCasts S1x1x50
  broadcasts_S1x1x50_S16x256x50 : S1x1x50.Broadcasts S16x256x50
  dot_S4096x50_S50x50_S4096x50_1_0_0_1_n_n_wf : DotDims.WF S4096x50 S50x50 S4096x50 [1] [0] [0] [1] [] []
  dot_S16x256x256_S16x256x50_S16x256x50_2_1_1_2_0_0_wf : DotDims.WF S16x256x256 S16x256x50 S16x256x50 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x50.size a ≤ S512x256x50.size a
  hwx0_1 : ∀ i : grid0.Coords, EltTy.bits .f32 = 32 ∨ (Rect.block (s := S512x256x50) S16x256x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x50.size a ≤ S50x50.size a
  hwx0_2 : ∀ i : grid0.Coords, EltTy.bits .f32 = 32 ∨ (Rect.block (s := S50x50) S50x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50.size a ≤ S50.size a
  hwx0_3 : ∀ i : grid0.Coords, EltTy.bits .f32 = 32 ∨ (Rect.block (s := S50) S50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x50.size a ≤ S512x256x50.size a
  hwx0_4 : ∀ i : grid0.Coords, EltTy.bits .f32 = 32 ∨ (Rect.block (s := S512x256x50) S16x256x50.size (cc0_transform_4 i) (hinb0_4 i)).WholeWords (EltTy.packing .f32)

variable [Facts₀]

def dot_S4096x50_S50x50_S4096x50_1_0_0_1_n_n : DotDims S4096x50 S50x50 S4096x50 where
  lhsContracting := [1]
  rhsContracting := [0]
  lhsNonContracting := [0]
  rhsNonContracting := [1]
  lhsBatch := []
  rhsBatch := []
  wf := dot_S4096x50_S50x50_S4096x50_1_0_0_1_n_n_wf
def dot_S16x256x256_S16x256x50_S16x256x50_2_1_1_2_0_0 : DotDims S16x256x256 S16x256x50 S16x256x50 where
  lhsContracting := [2]
  rhsContracting := [1]
  lhsNonContracting := [1]
  rhsNonContracting := [2]
  lhsBatch := [0]
  rhsBatch := [0]
  wf := dot_S16x256x256_S16x256x50_S16x256x50_2_1_1_2_0_0_wf

abbrev win0_0 : Pipeline.Window sig grid0 :=
  Pipeline.Window.ofSpec (Memref.whole main_arg1) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x256x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S50x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S16x256x50.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x256x50 : Shape := ⟨3, ![512, 256, 50]⟩
abbrev S512x256x256 : Shape := ⟨3, ![512, 256, 256]⟩
abbrev S50x50 : Shape := ⟨2, ![50, 50]⟩
abbrev S50 : Shape := ⟨1, ![50]⟩
abbrev S1x1x50 : Shape := ⟨3, ![1, 1, 50]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S512x256x50, .f32⟩
  | .hbm, ⟨1, _⟩ => ⟨S512x256x256, .f32⟩
  | .hbm, ⟨2, _⟩ => ⟨S50x50, .f32⟩
  | .hbm, ⟨3, _⟩ => ⟨S50, .f32⟩
  | .hbm, ⟨4, _⟩ => ⟨S512x256x50, .f32⟩
  | .hbm, ⟨5, _⟩ => ⟨S512x256x50, .f32⟩
  | .hbm, ⟨6, _⟩ => ⟨S1x1x50, .f32⟩
  | .hbm, ⟨7, _⟩ => ⟨S512x256x50, .f32⟩
  | .hbm, ⟨8, _⟩ => ⟨S512x256x50, .f32⟩
  | .hbm, ⟨9, _⟩ => ⟨S_, .f32⟩
  | .hbm, ⟨10, _⟩ => ⟨S512x256x50, .f32⟩
  | .hbm, ⟨11, _⟩ => ⟨S512x256x50, .f32⟩
  | _, _ => ⟨S512x256x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S50_S1x1x50_2 : S50.BroadcastsInDim S1x1x50 (![2] : Fin 1 → Fin S1x1x50.rank)
  bcast_S1x1x50_S512x256x50_0_1_2 : S1x1x50.BroadcastsInDim S512x256x50 (![0, 1, 2] : Fin 3 → Fin S512x256x50.rank)
  bcast_S_S512x256x50 : S_.BroadcastsInDim S512x256x50 (![] : Fin 0 → Fin S512x256x50.rank)
  dot_S512x256x256_S512x256x50_S512x256x50_2_1_1_2_0_0_wf : DotDims.WF S512x256x256 S512x256x50 S512x256x50 [2] [1] [1] [2] [0] [0]
  dot_S512x256x50_S50x50_S512x256x50_2_1_01_0_n_n_wf : DotDims.WF S512x256x50 S50x50 S512x256x50 [2] [1] [0, 1] [0] [] []

variable [Facts₀]

def dot_S512x256x256_S512x256x50_S512x256x50_2_1_1_2_0_0 : DotDims S512x256x256 S512x256x50 S512x256x50 where
  lhsContracting := [2]
  rhsContracting := [1]
  lhsNonContracting := [1]
  rhsNonContracting := [2]
  lhsBatch := [0]
  rhsBatch := [0]
  wf := dot_S512x256x256_S512x256x50_S512x256x50_2_1_1_2_0_0_wf
def dot_S512x256x50_S50x50_S512x256x50_2_1_01_0_n_n : DotDims S512x256x50 S50x50 S512x256x50 where
  lhsContracting := [2]
  rhsContracting := [1]
  lhsNonContracting := [0, 1]
  rhsNonContracting := [0]
  lhsBatch := []
  rhsBatch := []
  wf := dot_S512x256x50_S50x50_S512x256x50_2_1_01_0_n_n_wf

class Facts : Prop extends Facts₀ where

variable [Facts]
-- ==== Proof.Law.lean ====
/-
  Graph convolution, two ways round. For one output entry let `e k` be an adjacency row, `x k d` the feature matrix of
  the batch and `w d` one row of the linear layer. Projecting every node's features first and then aggregating over
  neighbours gives `∑ k, e k * ∑ d, x k d * w d`; aggregating first and then projecting gives
  `∑ d, (∑ k, e k * x k d) * w d`. Over the reals these are the same double sum (distributivity, then the two sums
  exchanged). On the extended reals distributivity fails at the infinities, so the law is stated for entries that are
  real numbers, and proved by carrying both sides into ℝ.
-/
import Idealize.ShloMosaic.PureOps.Ideal

open scoped BigOperators

namespace Cert.Gcn

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is finite when it is a real number. -/
def IsReal (x : EReal) : Prop := ∃ r : ℝ, x = (r : EReal)

/-- Project-then-aggregate equals aggregate-then-project when every entry is a real number. -/
theorem sum_mul_sum_comm {K D : Type*} [Fintype K] [Fintype D] (e : K → EReal) (x : K → D → EReal) (w : D → EReal)
    (he : ∀ k, IsReal (e k)) (hx : ∀ k d, IsReal (x k d)) (hw : ∀ d, IsReal (w d)) :
    ∑ k, e k * ∑ d, x k d * w d = ∑ d, (∑ k, e k * x k d) * w d := by
  choose e' he using he
  choose x' hx using hx
  choose w' hw using hw
  simp only [he, hx, hw, ← EReal.coe_mul, ← coe_sum]
  rw [EReal.coe_eq_coe_iff]
  simp only [Finset.mul_sum, Finset.sum_mul]
  rw [Finset.sum_comm]
  exact Finset.sum_congr rfl fun d _ => Finset.sum_congr rfl fun k _ => by ring

end Cert.Gcn
-- ==== Proof.Finite.lean ====
/-
  What the precondition says. The stated precondition is the conjunction of four tests, one per argument array: every
  entry `x` has `|x| < +∞`, where `|x|` is `max x (-x)` on the extended reals and `+∞` is the word `0x7F800000`. An
  extended real whose absolute value is below `+∞` is neither infinity, so it is a real number. Each test is an
  `and`-reduction of the array of comparisons down to one bit, and the four bits are joined by `and`; the result being
  `1` gives `1` at every comparison.
-/
import proofs.«164232_j35081292874421_2_alg».proof.Pre_finite_inputs
import proofs.«164232_j35081292874421_2_alg».proof.Proof.Law
import Idealize.ShloMosaic.PureOps.Ideal
import Idealize.ShloMosaic.Lib.ReduceAll
import Idealize.ShloMosaic.Lib.ValueIdx

noncomputable section

namespace Cert.Gcn

open Idealize.ShloMosaic Idealize.ShloMosaic.ValueIdx

/-- The word `0x7F800000` denotes `+∞`. -/
theorem ofBits_inf : Ideal.ofBits .f32 0x7F800000#32 = (⊤ : EReal) := by
  simp [Ideal.ofBits, Ideal.ieee]

/-- An extended real whose absolute value compares below `+∞` is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- The scalar shape has one index. -/
instance : Subsingleton Cert.Pre_finite_inputs.S_.Idx := ⟨fun _ _ => funext fun d => d.elim0⟩

open Cert.Pre_finite_inputs in
/-- Under the precondition every entry of every argument array is a real number. -/
theorem isReal_of_pre [Cert.Pre_finite_inputs.Facts]
    (a0 : FVec Ideal S512x256x50 .f32) (a1 : FVec Ideal S512x256x256 .f32) (a2 : FVec Ideal S50x50 .f32)
    (a3 : FVec Ideal S50 .f32) (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => isReal_of_abs_lt_inf _ (Host.reduce_andi_all _ _ _ _ _ h0' i),
    fun i => isReal_of_abs_lt_inf _ (Host.reduce_andi_all _ _ _ _ _ h1 i),
    fun i => isReal_of_abs_lt_inf _ (Host.reduce_andi_all _ _ _ _ _ h2 i),
    fun i => isReal_of_abs_lt_inf _ (Host.reduce_andi_all _ _ _ _ _ h3 i)⟩

end Cert.Gcn

end
-- ==== Proof.Spec.lean ====
/-
  One graph-convolution layer, `relu (efm · nfm · Wᵀ + b)`, as a function of its four argument arrays: node features
  `nfm[g, k, d]` (512 graphs, 256 nodes, 50 features), adjacency `efm[g, n, k]`, weights `W[o, d]` and bias `b[o]`. Entry
  `(g, n, o)` of the result depends on row `n` of graph `g`'s adjacency, on all of graph `g`'s features, on row `o` of
  the weights and on `b[o]`. The product of the three can be taken in two orders; both are written here, one entry first
  and then the whole array, and they agree whenever every argument entry is a real number.
-/
import Idealize.ShloMosaic.Lib.ValueIdx
import proofs.«164232_j35081292874421_2_alg».proof.Proof.Law

noncomputable section

open scoped BigOperators

namespace Cert.Gcn

open Idealize.ShloMosaic Idealize.ShloMosaic.ValueIdx

/-! ## One entry -/

/-- Project, then aggregate: every neighbour's features are first multiplied by the weight row, and the adjacency row
    then sums the projected neighbours; the bias is added and the result clamped below at zero. -/
def projAgg (e : Fin 256 → EReal) (x : Fin 256 → Fin 50 → EReal) (w : Fin 50 → EReal) (β : EReal) : EReal :=
  max ((∑ k, e k * ∑ d, x k d * w d) + β) 0

/-- Aggregate, then project: the adjacency row first sums the neighbours' features, and the aggregate is then
    multiplied by the weight row. -/
def aggProj (e : Fin 256 → EReal) (x : Fin 256 → Fin 50 → EReal) (w : Fin 50 → EReal) (β : EReal) : EReal :=
  max ((∑ d, (∑ k, e k * x k d) * w d) + β) 0

/-- The two orders give the same entry when the adjacency row, the features and the weight row are real numbers
    (the bias may be anything: it is added after the product on both sides). -/
theorem aggProj_eq_projAgg (e : Fin 256 → EReal) (x : Fin 256 → Fin 50 → EReal) (w : Fin 50 → EReal) (β : EReal)
    (he : ∀ k, IsReal (e k)) (hx : ∀ k d, IsReal (x k d)) (hw : ∀ d, IsReal (w d)) :
    aggProj e x w β = projAgg e x w β := by
  unfold aggProj projAgg
  rw [sum_mul_sum_comm e x w he hx hw]

/-! ## The whole array -/

abbrev Nodes : Shape := ⟨3, ![512, 256, 50]⟩
abbrev Edges : Shape := ⟨3, ![512, 256, 256]⟩
abbrev Weights : Shape := ⟨2, ![50, 50]⟩
abbrev Biases : Shape := ⟨1, ![50]⟩

/-- The adjacency row, the feature matrix and the weight row that entry `(g, n, o)` of the result reads. -/
abbrev adjRow (efm : Edges.Idx → EReal) (g : Fin 512) (n : Fin 256) : Fin 256 → EReal := fun k => efm (ix3 g n k)
abbrev feats (nfm : Nodes.Idx → EReal) (g : Fin 512) : Fin 256 → Fin 50 → EReal := fun k d => nfm (ix3 g k d)
abbrev wRow (W : Weights.Idx → EReal) (o : Fin 50) : Fin 50 → EReal := fun d => W (ix2 o d)

/-- The layer with the projection applied first. -/
def layerProjAgg (nfm : Nodes.Idx → EReal) (efm : Edges.Idx → EReal) (W : Weights.Idx → EReal) (b : Biases.Idx → EReal) :
    Nodes.Idx → EReal :=
  fun i => projAgg (adjRow efm (i 0) (i 1)) (feats nfm (i 0)) (wRow W (i 2)) (b (ix1 (i 2)))

/-- The layer with the aggregation applied first. -/
def layerAggProj (nfm : Nodes.Idx → EReal) (efm : Edges.Idx → EReal) (W : Weights.Idx → EReal) (b : Biases.Idx → EReal) :
    Nodes.Idx → EReal :=
  fun i => aggProj (adjRow efm (i 0) (i 1)) (feats nfm (i 0)) (wRow W (i 2)) (b (ix1 (i 2)))

/-- On arrays of real numbers the two layers are one function. -/
theorem layerAggProj_eq_layerProjAgg (nfm : Nodes.Idx → EReal) (efm : Edges.Idx → EReal) (W : Weights.Idx → EReal)
    (b : Biases.Idx → EReal) (hn : ∀ i, IsReal (nfm i)) (he : ∀ i, IsReal (efm i)) (hW : ∀ i, IsReal (W i)) :
    layerAggProj nfm efm W b = layerProjAgg nfm efm W b :=
  funext fun i => aggProj_eq_projAgg _ _ _ _ (fun _ => he _) (fun _ _ => hn _) (fun _ => hW _)

end Cert.Gcn

end
-- ==== Proof.Payload.lean ====
/-
  What the kernel body computes for one block of sixteen graphs, entry by entry. The body flattens the block's features
  to 4096 rows (row `p * 256 + k` is node `k` of the block's graph `p`), multiplies them by the transposed weights (a sum
  over the 50 features), folds the rows back to sixteen graphs, multiplies each graph's adjacency by its projected
  features (a sum over the 256 neighbours), adds the bias broadcast along graphs and nodes, and clamps below at zero.
  A change of float format is the identity on extended reals, and both products start from a zero accumulator, so at
  entry `(p, n, o)` of the block this is the project-then-aggregate form of the layer.
-/
import proofs.«164232_j35081292874421_2_alg».proof.Proof.Gen.KernelIdeal.Skeleton
import proofs.«164232_j35081292874421_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Gcn

/-! ## Folding sixteen graphs of 256 nodes into 4096 rows and back -/

/-- Node `k` of the block's graph `p` is row `p * 256 + k` of the flattened block. -/
def flatRow (p : Fin 16) (k : Fin 256) : Fin 4096 := ⟨p.val * 256 + k.val, by have := p.isLt; have := k.isLt; omega⟩

/-- The flattened block at row `p * 256 + k` is the block at graph `p`, node `k`. -/
theorem flatten_apply {α : Type} (y : S16x256x50.Idx → α) (h : S16x256x50.ShapeCasts S4096x50) (p : Fin 16) (k : Fin 256)
    (d : Fin 50) : shapeCast S4096x50 y h (ix2 (flatRow p k) d) = y (ix3 p k d) :=
  shapeCast_apply y h (ix2 (flatRow p k) d) (ix3 p k d) (by
    rw [Shape.rowMajor_val_two, Shape.rowMajor_val_three]; rfl)

/-- Folding 4096 rows back: graph `p`, node `k` reads row `p * 256 + k`. -/
theorem unflatten_apply {α : Type} (v : S4096x50.Idx → α) (h : S4096x50.ShapeCasts S16x256x50) (p : Fin 16) (k : Fin 256)
    (o : Fin 50) : shapeCast S16x256x50 v h (ix3 p k o) = v (ix2 (flatRow p k) o) :=
  shapeCast_apply v h (ix3 p k o) (ix2 (flatRow p k) o) (by
    rw [Shape.rowMajor_val_two, Shape.rowMajor_val_three]; rfl)

/-! ## The bias along graphs and nodes -/

/-- The bias, given two leading unit axes and broadcast over the block, reads `b[o]` at every graph and node. -/
theorem bias_apply {α : Type} (b : S50.Idx → α) (h1 : S50.ShapeCasts S1x1x50) (h2 : S1x1x50.Broadcasts S16x256x50)
    (p : Fin 16) (n : Fin 256) (o : Fin 50) :
    broadcastTo S16x256x50 (shapeCast S1x1x50 b h1) h2 (ix3 p n o) = b (ix1 o) := by
  refine (broadcastTo_apply (shapeCast S1x1x50 b h1) h2 (ix3 p n o) (ix3 (0 : Fin 1) (0 : Fin 1) o) (fun a => ?_)).trans ?_
  · match a with
    | ⟨0, _⟩ => show 0 = if (1 : Nat) = 1 then 0 else p.val; rw [if_pos rfl]
    | ⟨1, _⟩ => show 0 = if (1 : Nat) = 1 then 0 else n.val; rw [if_pos rfl]
    | ⟨2, _⟩ => show o.val = if (50 : Nat) = 1 then 0 else o.val; rw [if_neg (by decide)]
  · exact shapeCast_apply b h1 (ix3 (0 : Fin 1) (0 : Fin 1) o) (ix1 o) (by
      rw [Shape.rowMajor_val_one, Shape.rowMajor_val_three]
      show o.val = (0 * 1 + 0) * 50 + o.val
      omega)

/-! ## The two products as sums -/

/-! The operand entries a product reads for result entry `i` and contracted coordinate `q`, axis by axis. -/

theorem proj_lhs0 (i : S4096x50.Idx) (q : dot_S4096x50_S50x50_S4096x50_1_0_0_1_n_n.contr.Idx) :
    (dot_S4096x50_S50x50_S4096x50_1_0_0_1_n_n.lhsIdx i q 0).val = (i 0).val := by
  unfold DotDims.lhsIdx
  rw [dif_neg (show ¬(0 : Fin S4096x50.rank) ∈ dot_S4096x50_S50x50_S4096x50_1_0_0_1_n_n.lhsBatch by decide),
    dif_pos (show (0 : Fin S4096x50.rank) ∈ dot_S4096x50_S50x50_S4096x50_1_0_0_1_n_n.lhsNonContracting by decide)]
  rfl
theorem proj_lhs1 (i : S4096x50.Idx) (q : dot_S4096x50_S50x50_S4096x50_1_0_0_1_n_n.contr.Idx) :
    (dot_S4096x50_S50x50_S4096x50_1_0_0_1_n_n.lhsIdx i q 1).val = (q ⟨0, by decide⟩).val :=
  dot_S4096x50_S50x50_S4096x50_1_0_0_1_n_n.lhsIdx_val_of_single rfl i q
theorem proj_rhs0 (i : S4096x50.Idx) (q : dot_S4096x50_S50x50_S4096x50_1_0_0_1_n_n.contr.Idx) :
    (dot_S4096x50_S50x50_S4096x50_1_0_0_1_n_n.rhsIdx i q 0).val = (q ⟨0, by decide⟩).val :=
  dot_S4096x50_S50x50_S4096x50_1_0_0_1_n_n.rhsIdx_val_of_single rfl i q
theorem proj_rhs1 (i : S4096x50.Idx) (q : dot_S4096x50_S50x50_S4096x50_1_0_0_1_n_n.contr.Idx) :
    (dot_S4096x50_S50x50_S4096x50_1_0_0_1_n_n.rhsIdx i q 1).val = (i 1).val := by
  unfold DotDims.rhsIdx
  rw [dif_neg (show ¬(1 : Fin S50x50.rank) ∈ dot_S4096x50_S50x50_S4096x50_1_0_0_1_n_n.rhsBatch by decide),
    dif_pos (show (1 : Fin S50x50.rank) ∈ dot_S4096x50_S50x50_S4096x50_1_0_0_1_n_n.rhsNonContracting by decide)]
  rfl

/-- The projection: row `r` of the flattened features times the transposed weights, a sum over the 50 features. -/
theorem proj_apply (a : FVec Ideal S4096x50 .bf16) (w : FVec Ideal S50x50 .bf16) (r : Fin 4096) (o : Fin 50) :
    matmul dot_S4096x50_S50x50_S4096x50_1_0_0_1_n_n none a w (constant (F := Ideal) S4096x50 .f32 0x00000000#32) (ix2 r o)
      = ∑ d : Fin 50, a (ix2 r d) * w (ix2 d o) := by
  refine (Ideal.matmul_constant_zero_apply dot_S4096x50_S50x50_S4096x50_1_0_0_1_n_n none a w (ix2 r o)).trans ?_
  rw [← Equiv.sum_comp (contrEquiv1 dot_S4096x50_S50x50_S4096x50_1_0_0_1_n_n 50 rfl rfl).symm]
  refine Finset.sum_congr rfl fun d _ => ?_
  have hd := contrEquiv1_symm_val dot_S4096x50_S50x50_S4096x50_1_0_0_1_n_n 50 rfl rfl d
  have el : dot_S4096x50_S50x50_S4096x50_1_0_0_1_n_n.lhsIdx (ix2 r o)
      ((contrEquiv1 dot_S4096x50_S50x50_S4096x50_1_0_0_1_n_n 50 rfl rfl).symm d) = ix2 r d :=
    funext fun a => Fin.ext (by
      match a with
      | ⟨0, _⟩ => exact proj_lhs0 _ _
      | ⟨1, _⟩ => exact (proj_lhs1 _ _).trans hd)
  have er : dot_S4096x50_S50x50_S4096x50_1_0_0_1_n_n.rhsIdx (ix2 r o)
      ((contrEquiv1 dot_S4096x50_S50x50_S4096x50_1_0_0_1_n_n 50 rfl rfl).symm d) = ix2 d o :=
    funext fun a => Fin.ext (by
      match a with
      | ⟨0, _⟩ => exact (proj_rhs0 _ _).trans hd
      | ⟨1, _⟩ => exact proj_rhs1 _ _)
  rw [el, er]

theorem agg_lhs0 (i : S16x256x50.Idx) (q : dot_S16x256x256_S16x256x50_S16x256x50_2_1_1_2_0_0.contr.Idx) :
    (dot_S16x256x256_S16x256x50_S16x256x50_2_1_1_2_0_0.lhsIdx i q 0).val = (i 0).val := by
  unfold DotDims.lhsIdx
  rw [dif_pos (show (0 : Fin S16x256x256.rank) ∈ dot_S16x256x256_S16x256x50_S16x256x50_2_1_1_2_0_0.lhsBatch by decide)]
  rfl
theorem agg_lhs1 (i : S16x256x50.Idx) (q : dot_S16x256x256_S16x256x50_S16x256x50_2_1_1_2_0_0.contr.Idx) :
    (dot_S16x256x256_S16x256x50_S16x256x50_2_1_1_2_0_0.lhsIdx i q 1).val = (i 1).val := by
  unfold DotDims.lhsIdx
  rw [dif_neg (show ¬(1 : Fin S16x256x256.rank) ∈ dot_S16x256x256_S16x256x50_S16x256x50_2_1_1_2_0_0.lhsBatch by decide),
    dif_pos (show (1 : Fin S16x256x256.rank) ∈ dot_S16x256x256_S16x256x50_S16x256x50_2_1_1_2_0_0.lhsNonContracting by decide)]
  rfl
theorem agg_lhs2 (i : S16x256x50.Idx) (q : dot_S16x256x256_S16x256x50_S16x256x50_2_1_1_2_0_0.contr.Idx) :
    (dot_S16x256x256_S16x256x50_S16x256x50_2_1_1_2_0_0.lhsIdx i q 2).val = (q ⟨0, by decide⟩).val :=
  dot_S16x256x256_S16x256x50_S16x256x50_2_1_1_2_0_0.lhsIdx_val_of_single rfl i q
theorem agg_rhs0 (i : S16x256x50.Idx) (q : dot_S16x256x256_S16x256x50_S16x256x50_2_1_1_2_0_0.contr.Idx) :
    (dot_S16x256x256_S16x256x50_S16x256x50_2_1_1_2_0_0.rhsIdx i q 0).val = (i 0).val := by
  unfold DotDims.rhsIdx
  rw [dif_pos (show (0 : Fin S16x256x50.rank) ∈ dot_S16x256x256_S16x256x50_S16x256x50_2_1_1_2_0_0.rhsBatch by decide)]
  rfl
theorem agg_rhs1 (i : S16x256x50.Idx) (q : dot_S16x256x256_S16x256x50_S16x256x50_2_1_1_2_0_0.contr.Idx) :
    (dot_S16x256x256_S16x256x50_S16x256x50_2_1_1_2_0_0.rhsIdx i q 1).val = (q ⟨0, by decide⟩).val :=
  dot_S16x256x256_S16x256x50_S16x256x50_2_1_1_2_0_0.rhsIdx_val_of_single rfl i q
theorem agg_rhs2 (i : S16x256x50.Idx) (q : dot_S16x256x256_S16x256x50_S16x256x50_2_1_1_2_0_0.contr.Idx) :
    (dot_S16x256x256_S16x256x50_S16x256x50_2_1_1_2_0_0.rhsIdx i q 2).val = (i 2).val := by
  unfold DotDims.rhsIdx
  rw [dif_neg (show ¬(2 : Fin S16x256x50.rank) ∈ dot_S16x256x256_S16x256x50_S16x256x50_2_1_1_2_0_0.rhsBatch by decide),
    dif_pos (show (2 : Fin S16x256x50.rank) ∈ dot_S16x256x256_S16x256x50_S16x256x50_2_1_1_2_0_0.rhsNonContracting by decide)]
  rfl

/-- The aggregation: row `n` of graph `p`'s adjacency times graph `p`'s projected features, a sum over the 256 neighbours. -/
theorem agg_apply (e : FVec Ideal S16x256x256 .bf16) (z : FVec Ideal S16x256x50 .bf16) (p : Fin 16) (n : Fin 256) (o : Fin 50) :
    matmul dot_S16x256x256_S16x256x50_S16x256x50_2_1_1_2_0_0 none e z (constant (F := Ideal) S16x256x50 .f32 0x00000000#32) (ix3 p n o)
      = ∑ k : Fin 256, e (ix3 p n k) * z (ix3 p k o) := by
  refine (Ideal.matmul_constant_zero_apply dot_S16x256x256_S16x256x50_S16x256x50_2_1_1_2_0_0 none e z (ix3 p n o)).trans ?_
  rw [← Equiv.sum_comp (contrEquiv1 dot_S16x256x256_S16x256x50_S16x256x50_2_1_1_2_0_0 256 rfl rfl).symm]
  refine Finset.sum_congr rfl fun k _ => ?_
  have hk := contrEquiv1_symm_val dot_S16x256x256_S16x256x50_S16x256x50_2_1_1_2_0_0 256 rfl rfl k
  have el : dot_S16x256x256_S16x256x50_S16x256x50_2_1_1_2_0_0.lhsIdx (ix3 p n o)
      ((contrEquiv1 dot_S16x256x256_S16x256x50_S16x256x50_2_1_1_2_0_0 256 rfl rfl).symm k) = ix3 p n k :=
    funext fun a => Fin.ext (by
      match a with
      | ⟨0, _⟩ => exact agg_lhs0 _ _
      | ⟨1, _⟩ => exact agg_lhs1 _ _
      | ⟨2, _⟩ => exact (agg_lhs2 _ _).trans hk)
  have er : dot_S16x256x256_S16x256x50_S16x256x50_2_1_1_2_0_0.rhsIdx (ix3 p n o)
      ((contrEquiv1 dot_S16x256x256_S16x256x50_S16x256x50_2_1_1_2_0_0 256 rfl rfl).symm k) = ix3 p k o :=
    funext fun a => Fin.ext (by
      match a with
      | ⟨0, _⟩ => exact agg_rhs0 _ _
      | ⟨1, _⟩ => exact (agg_rhs1 _ _).trans hk
      | ⟨2, _⟩ => exact agg_rhs2 _ _)
  rw [el, er]

/-! ## The body's stored value at an entry -/

/-- Entry `(p, n, o)` of what the body stores, from the four blocks it loads: adjacency `x0`, features `x1`, transposed
    weights `x2` (so `x2[d, o]` is the weight of feature `d` for output `o`) and bias `x3`. -/
theorem pay_apply (x0 : Vec Ideal S16x256x256 .f32) (x1 : Vec Ideal S16x256x50 .f32) (x2 : Vec Ideal S50x50 .f32)
    (x3 : Vec Ideal S50 .f32) (p : Fin 16) (n : Fin 256) (o : Fin 50) :
    k0_pay1 (F := Ideal) x0 x1 x2 x3 (ix3 p n o)
      = projAgg (fun k => x0 (ix3 p n k)) (fun k d => x1 (ix3 p k d)) (fun d => x2 (ix2 d o)) (x3 (ix1 o)) := by
  unfold k0_pay1 projAgg
  simp only [maximumf_apply, addf_apply, broadcast_apply]
  rw [agg_apply, bias_apply]
  refine congrArg₂ max (congrArg (· + x3 (ix1 o)) (Finset.sum_congr rfl fun k _ => ?_)) Ideal.ofBits_zero_f32
  refine congrArg (x0 (ix3 p n k) * ·) ?_
  refine (truncf_apply (φ := .f32) (ψ := .bf16) _ _ (ix3 p k o)).trans ?_
  refine (unflatten_apply _ _ p k o).trans ?_
  refine (proj_apply _ _ (flatRow p k) o).trans (Finset.sum_congr rfl fun d _ => ?_)
  refine congrArg₂ (· * ·) ((flatten_apply _ _ p k d).trans (truncf_apply (φ := .f32) (ψ := .bf16) x1 _ (ix3 p k d))) ?_
  exact (truncf_apply (φ := .f32) (ψ := .bf16) _ _ (ix2 d o)).trans (congrFun (shapeCast_self x2 _) (ix2 d o))

end Cert.KernelIdeal.Payload

end
-- ==== Proof.ArrayValue.lean ====
/-
  From blocks to the array. The grid has 32 points. At point `t` the pipeline stages graphs `16 t … 16 t + 15` of the
  adjacency and of the features, the whole transposed weight matrix (written by the host before the region: entry
  `(d, o)` of it is `W[o, d]`) and the whole bias, and writes back graphs `16 t … 16 t + 15` of the result. So what point
  `t` writes back is its sixteen graphs of the project-then-aggregate layer of the whole arguments; the 32 blocks tile
  the 512 graphs (graph `g` lies in block `g / 16`), hence the result array after the run is that layer.
-/
import proofs.«164232_j35081292874421_2_alg».proof.Proof.Gen.KernelIdeal.Value
import proofs.«164232_j35081292874421_2_alg».proof.Proof.Payload
import Idealize.ShloMosaic.Lib.Pipeline.Value
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.Gcn
open Idealize.ShloMosaic.Pipeline (Dat)

/-! ## One block, for any placement of its sixteen graphs in the batch -/

/-- If the four loaded blocks are: the adjacency and the features of graphs `g 0 … g 15`, the transposed weights, and
    the bias, then entry `j` of what the body stores is the layer's entry for graph `g (j 0)`. -/
theorem block_entry (nfm : Nodes.Idx → EReal) (efm : Edges.Idx → EReal) (W : Weights.Idx → EReal) (b : Biases.Idx → EReal)
    (x0 : Vec Ideal S16x256x256 .f32) (x1 : Vec Ideal S16x256x50 .f32) (x2 : Vec Ideal S50x50 .f32) (x3 : Vec Ideal S50 .f32)
    (g : Fin 16 → Fin 512)
    (h0 : ∀ (p : Fin 16) (n k : Fin 256), x0 (ix3 p n k) = efm (ix3 (g p) n k))
    (h1 : ∀ (p : Fin 16) (k : Fin 256) (d : Fin 50), x1 (ix3 p k d) = nfm (ix3 (g p) k d))
    (h2 : ∀ d o : Fin 50, x2 (ix2 d o) = W (ix2 o d))
    (h3 : ∀ o : Fin 50, x3 (ix1 o) = b (ix1 o))
    (j : S16x256x50.Idx) :
    k0_pay1 (F := Ideal) x0 x1 x2 x3 j = layerProjAgg nfm efm W b (ix3 (g (j 0)) (j 1) (j 2)) := by
  obtain ⟨p, n, o, rfl⟩ : ∃ (p : Fin 16) (n : Fin 256) (o : Fin 50), j = ix3 p n o := ⟨j 0, j 1, j 2, eq_ix3 j⟩
  rw [Payload.pay_apply]
  unfold layerProjAgg
  simp only [h0, h1, h2, h3]

/-! ## The blocks at a grid point -/

variable (m : (ℓ : Loc nD τ sig) → Buf (Elt Ideal) ℓ) (ρ : Dev nD → PrngReg)

/-- The block index of every window at every point, decided over the 32 points: the adjacency, the features and the
    result move one block of sixteen graphs per point; the weights and the bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- Graph `p` of the block at point `t` is graph `16 t + p` of the batch. -/
def graphAt (t : Fin cfg0.N) (p : Fin 16) : Fin 512 :=
  ⟨t.val * 16 + p.val, by have := t.isLt; have h : cfg0.N = 32 := N_0; have := p.isLt; omega⟩

/-- The adjacency block at point `t`. -/
theorem adj_block (c : Dev nD) (t : Fin cfg0.N) (p : Fin 16) (n k : Fin 256) :
    iblk m c 0 t (ix3 p n k) = m ((c : Thread nD τ).loc main_arg1) (ix3 (graphAt t p) n k) := by
  obtain ⟨e0, e1, e2, -⟩ := idx_facts t
  show V m c main_arg1 (((cfg0.win 0).blk t).view.emb (ix3 p n k)) = _
  refine (congrFun (V_main_arg1 m c) _).trans (congrArg _ (funext fun a => Fin.ext ?_))
  match a with
  | ⟨0, _⟩ => show win0_0.index t (0 : Fin 3) * 16 + 1 * p.val = t.val * 16 + p.val; omega
  | ⟨1, _⟩ => show win0_0.index t (1 : Fin 3) * 256 + 1 * n.val = n.val; omega
  | ⟨2, _⟩ => show win0_0.index t (2 : Fin 3) * 256 + 1 * k.val = k.val; omega

/-- The feature block at point `t`. -/
theorem feat_block (c : Dev nD) (t : Fin cfg0.N) (p : Fin 16) (k : Fin 256) (d : Fin 50) :
    iblk m c 1 t (ix3 p k d) = m ((c : Thread nD τ).loc main_arg0) (ix3 (graphAt t p) k d) := by
  obtain ⟨-, -, -, e0, e1, e2, -⟩ := idx_facts t
  show V m c main_arg0 (((cfg0.win 1).blk t).view.emb (ix3 p k d)) = _
  refine (congrFun (V_main_arg0 m c) _).trans (congrArg _ (funext fun a => Fin.ext ?_))
  match a with
  | ⟨0, _⟩ => show win0_1.index t (0 : Fin 3) * 16 + 1 * p.val = t.val * 16 + p.val; omega
  | ⟨1, _⟩ => show win0_1.index t (1 : Fin 3) * 256 + 1 * k.val = k.val; omega
  | ⟨2, _⟩ => show win0_1.index t (2 : Fin 3) * 50 + 1 * d.val = d.val; omega

/-- The array the third window stages is the transposed weight matrix, which the host writes before the region. -/
theorem wt_array (c : Dev nD) :
    (V m c main_v0 : S50x50.Idx → EReal)
      = transpose S50x50 [1, 0] (m ((c : Thread nD τ).loc main_arg2)) transposes_S50x50_S50x50_1_0 := by
  dsimp only [V, hostOps0]; after_results

/-- The weight block at every point: entry `(d, o)` is `W[o, d]`. -/
theorem wt_block (c : Dev nD) (t : Fin cfg0.N) (d o : Fin 50) :
    iblk m c 2 t (ix2 d o) = m ((c : Thread nD τ).loc main_arg2) (ix2 o d) := by
  obtain ⟨-, -, -, -, -, -, e0, e1, -⟩ := idx_facts t
  show V m c main_v0 (((cfg0.win 2).blk t).view.emb (ix2 d o)) = _
  have hemb : ((cfg0.win 2).blk t).view.emb (ix2 d o) = (ix2 d o : S50x50.Idx) := funext fun a => Fin.ext (by
    match a with
    | ⟨0, _⟩ => show win0_2.index t (0 : Fin 2) * 50 + 1 * d.val = d.val; omega
    | ⟨1, _⟩ => show win0_2.index t (1 : Fin 2) * 50 + 1 * o.val = o.val; omega)
  refine (congrArg (V m c main_v0) hemb).trans ((congrFun (wt_array m c) (ix2 d o)).trans ?_)
  exact transpose_apply [1, 0] _ transposes_S50x50_S50x50_1_0 (ix2 d o) (ix2 o d) (fun b => by
    match b with
    | ⟨0, _⟩ => rfl
    | ⟨1, _⟩ => rfl)

/-- The bias block at every point. -/
theorem bias_block (c : Dev nD) (t : Fin cfg0.N) (o : Fin 50) :
    iblk m c 3 t (ix1 o) = m ((c : Thread nD τ).loc main_arg3) (ix1 o) := by
  obtain ⟨-, -, -, -, -, -, -, -, e0, -⟩ := idx_facts t
  show V m c main_arg3 (((cfg0.win 3).blk t).view.emb (ix1 o)) = _
  refine (congrFun (V_main_arg3 m c) _).trans (congrArg _ (funext fun a => Fin.ext ?_))
  match a with
  | ⟨0, _⟩ => show win0_3.index t (0 : Fin 1) * 50 + 1 * o.val = o.val; omega

/-! ## What a point writes back, the cover, and the array after the run -/

/-- The layer of the arguments as launched, on core `c`. -/
abbrev result (c : Dev nD) : S512x256x50.Idx → EReal :=
  layerProjAgg (m ((c : Thread nD τ).loc main_arg0)) (m ((c : Thread nD τ).loc main_arg1))
    (m ((c : Thread nD τ).loc main_arg2)) (m ((c : Thread nD τ).loc main_arg3))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- What point `t` writes back is its block of sixteen graphs of the layer. -/
theorem flushed_eq (c : Dev nD) (t : Fin cfg0.N) :
    (dats m 0 c).flushed 4 t = ((cfg0.win 4).blk t).view.read (Elt Ideal) (result m c) := by
  obtain ⟨-, -, -, -, -, -, -, -, -, e0, e1, e2⟩ := idx_facts t
  rw [Value.flushed4]
  unfold out0_4
  rw [View.canon_unit_zero zeros3]
  simp only [View.ld_unit_zero (S := S16x256x256) zeros3, View.ld_unit_zero (S := S16x256x50) zeros3,
    View.ld_unit_zero (S := S50x50) zeros2, View.ld_unit_zero (S := S50) zeros1]
  funext j
  show k0_pay1 (F := Ideal) (iblk m c 0 t) (iblk m c 1 t) (iblk m c 2 t) (iblk m c 3 t) j
    = result m c (((cfg0.win 4).blk t).view.emb j)
  refine (block_entry _ _ _ _ (iblk m c 0 t) (iblk m c 1 t) (iblk m c 2 t) (iblk m c 3 t) (graphAt t)
    (adj_block m c t) (feat_block m c t) (wt_block m c t) (bias_block m c t) j).trans ?_
  refine congrArg (result m c) (funext fun a => Fin.ext ?_)
  match a with
  | ⟨0, _⟩ => show t.val * 16 + (j 0).val = win0_4.index t (0 : Fin 3) * 16 + 1 * (j 0).val; omega
  | ⟨1, _⟩ => show (j 1).val = win0_4.index t (1 : Fin 3) * 256 + 1 * (j 1).val; omega
  | ⟨2, _⟩ => show (j 2).val = win0_4.index t (2 : Fin 3) * 50 + 1 * (j 2).val; omega

/-- An entry of the result array is in point `t`'s block iff each coordinate is in the block's range on its axis. -/
theorem mem_blk (t : Fin cfg0.N) (i : S512x256x50.Idx) :
    i ∈ ((cfg0.win 4).blk t).view.set
      ↔ ∀ a : Fin 3, win0_4.index t a * S16x256x50.size a ≤ (i a).val ∧ (i a).val < win0_4.index t a * S16x256x50.size a + S16x256x50.size a := by
  show i ∈ ((View.whole main_v1).slice (win0_4.rect t)).set ↔ _
  rw [View.set_slice_whole, Rect.mem_set_unit]
  exact Iff.rfl

/-- Every entry of the result array lies in the block of the point that holds its graph: point `g / 16` for graph `g`. -/
theorem cover (i : S512x256x50.Idx) :
    ∃ t : Fin cfg0.N, (cfg0.win 4).flush t = true ∧ i ∈ ((cfg0.win 4).blk t).view.set := by
  have hi0 : (i 0).val < 512 := (i 0).isLt
  have hi1 : (i 1).val < 256 := (i 1).isLt
  have hi2 : (i 2).val < 50 := (i 2).isLt
  have hN : cfg0.N = 32 := N_0
  let t : Fin cfg0.N := ⟨(i 0).val / 16, by omega⟩
  obtain ⟨-, -, -, -, -, -, -, -, -, e0, e1, e2⟩ := idx_facts t
  have ht : t.val = (i 0).val / 16 := rfl
  refine ⟨t, flush0_4 t, ?_⟩
  rw [mem_blk]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 256 ≤ (i 1).val ∧ (i 1).val < win0_4.index t (1 : Fin 3) * 256 + 256; omega
  | ⟨2, _⟩ => show win0_4.index t (2 : Fin 3) * 50 ≤ (i 2).val ∧ (i 2).val < win0_4.index t (2 : Fin 3) * 50 + 50; omega

/-- The result array after the run is the layer of the arguments as launched. -/
theorem final (c : Dev nD) : (dats m 0 c).arrAt 4 cfg0.N = result m c :=
  (dats m 0 c).arrAt_eq_of_cover 4 (result m c) (fun t _ => flushed_eq m c t) cover

/-- Every weakly fair execution of the kernel's program terminates with the result array at the layer of the arguments,
    the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RefValue.lean ====
/-
  The reference's result, entry by entry. The reference multiplies adjacency by features first (a batched product over
  the 256 neighbours), then multiplies by the transposed weights (a product over the 50 features), adds the bias
  broadcast along graphs and nodes, and clamps below at zero. Read at entry `(g, n, o)` this is the
  aggregate-then-project form of the layer: the two products are finite sums over the contracted axis, the operands
  read at the indices below.
-/
import proofs.«164232_j35081292874421_2_alg».proof.Proof.Gen.ReferenceIdeal.Read
import proofs.«164232_j35081292874421_2_alg».proof.Proof.Spec
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Gcn

/-- The adjacency entry the double product reads for result entry `i`, feature `d`, neighbour `k`: `(g, n, k)`. -/
theorem adj_idx (i : S512x256x50.Idx) (d : Fin 50) (k : Fin 256) :
    lidx_main_v0 (lidx_main_v1 i d) k = ix3 (i 0) (i 1) k :=
  funext fun a => Fin.ext (by match a with | ⟨0, _⟩ => rfl | ⟨1, _⟩ => rfl | ⟨2, _⟩ => rfl)

/-- The feature entry it reads: `(g, k, d)`. -/
theorem feat_idx (i : S512x256x50.Idx) (d : Fin 50) (k : Fin 256) :
    ridx_main_v0 (lidx_main_v1 i d) k = ix3 (i 0) k d :=
  funext fun a => Fin.ext (by match a with | ⟨0, _⟩ => rfl | ⟨1, _⟩ => rfl | ⟨2, _⟩ => rfl)

/-- The weight entry it reads: `(o, d)`. -/
theorem weight_idx (i : S512x256x50.Idx) (d : Fin 50) : ridx_main_v1 i d = ix2 (i 2) d :=
  funext fun a => Fin.ext (by match a with | ⟨0, _⟩ => rfl | ⟨1, _⟩ => rfl)

/-- The bias entry it reads: `o`. -/
theorem bias_idx (i : S512x256x50.Idx) : idx_main_v2 (idx_main_v3 i) = ix1 (i 2) :=
  funext fun a => Fin.ext (by match a with | ⟨0, _⟩ => rfl)

/-- The reference's result array is the layer with the aggregation applied first. -/
theorem val_eq_layer (x0 : (⟨S512x256x50, .f32⟩ : BufTy).Contents (Elt Ideal)) (x1 : (⟨S512x256x256, .f32⟩ : BufTy).Contents (Elt Ideal))
    (x2 : (⟨S50x50, .f32⟩ : BufTy).Contents (Elt Ideal)) (x3 : (⟨S50, .f32⟩ : BufTy).Contents (Elt Ideal)) :
    val_main_v5 (F := Ideal) x0 x1 x2 x3 = layerAggProj x0 x1 x2 x3 := by
  funext i
  rw [val_main_v5_apply, val_main_v4_apply, val_main_v1_apply, val_main_v3_apply, val_main_v2_apply,
    val_main_call0_v0_apply, val_main_call0_cst_apply]
  simp only [val_main_v0_apply, adj_idx, feat_idx, weight_idx, bias_idx, Ideal.maximumf_def, Ideal.addf_def,
    Ideal.ofBits_def, Ideal.ofBits_zero_f32]
  rfl

end Cert.ReferenceIdeal.RefValue

end
-- ==== Proof.lean ====
/-
  A graph-convolution layer `relu (efm · nfm · Wᵀ + b)` over 512 graphs of 256 nodes with 50 features, computed two ways.
  The kernel works on blocks of sixteen graphs: it first multiplies the features by the transposed weights and then
  multiplies the adjacency by the projected features. The reference multiplies the adjacency by the features first and
  the result by the transposed weights afterwards. At the ideal values both are exact sums over the extended reals, a
  change of float format is the identity, and the two orders of multiplication agree by distributivity and an
  exchange of two finite sums — which holds because the precondition makes every argument entry a real number.

  The pieces: `Proof/Law.lean` (the exchange of sums, over ℝ), `Proof/Spec.lean` (the layer in both orders as a function
  of the argument arrays), `Proof/Finite.lean` (the precondition gives real entries), `Proof/Payload.lean` (the kernel
  body's stored value at an entry), `Proof/ArrayValue.lean` (the sixteen-graph blocks tile the result array) and
  `Proof/RefValue.lean` (the reference's result at an entry). The kernel's idealization rewrote nothing, so there is
  nothing to preserve; the three programs' runs are the generated frame and run modules.
-/
import proofs.«164232_j35081292874421_2_alg».proof.Defs
import proofs.«164232_j35081292874421_2_alg».proof.Proof.Gen.Kernel
import proofs.«164232_j35081292874421_2_alg».proof.Proof.Gen.Kernel.Skeleton
import proofs.«164232_j35081292874421_2_alg».proof.Proof.Gen.Kernel.Launch
import proofs.«164232_j35081292874421_2_alg».proof.Proof.Gen.Kernel.Points
import proofs.«164232_j35081292874421_2_alg».proof.Proof.Gen.Kernel.Frame
import proofs.«164232_j35081292874421_2_alg».proof.Proof.Gen.KernelIdeal
import proofs.«164232_j35081292874421_2_alg».proof.Proof.Gen.KernelIdeal.Skeleton
import proofs.«164232_j35081292874421_2_alg».proof.Proof.Gen.KernelIdeal.Launch
import proofs.«164232_j35081292874421_2_alg».proof.Proof.Gen.KernelIdeal.Points
import proofs.«164232_j35081292874421_2_alg».proof.Proof.Gen.KernelIdeal.Frame
import proofs.«164232_j35081292874421_2_alg».proof.Proof.Gen.ReferenceIdeal
import proofs.«164232_j35081292874421_2_alg».proof.Proof.Gen.Pre_finite_inputs
import proofs.«164232_j35081292874421_2_alg».proof.Proof.Gen.KernelIdeal.Value
import proofs.«164232_j35081292874421_2_alg».proof.Proof.Gen.ReferenceIdeal.Run
import proofs.«164232_j35081292874421_2_alg».proof.Proof.Gen.ReferenceIdeal.Read
import proofs.«164232_j35081292874421_2_alg».proof.Proof.Finite
import proofs.«164232_j35081292874421_2_alg».proof.Proof.ArrayValue
import proofs.«164232_j35081292874421_2_alg».proof.Proof.RefValue
import Idealize.ShloMosaic.Adequacy
import Idealize.ShloMosaic.Init

noncomputable section

namespace Cert.Proof

open Idealize.ShloMosaic Idealize.SL.Sem

/-- The kernel's program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array ends at the layer with the projection applied
    first and the reference's at the layer with the aggregation applied first, of the same arguments; under the
    precondition their entries are real numbers, where the two layers are one function. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hn, he, hW, -⟩ := Cert.Gcn.isReal_of_pre _ _ _ _ (hpre c)
  rw [Cert.ReferenceIdeal.Read.val_main_v5_eq, Cert.ReferenceIdeal.RefValue.val_eq_layer,
    (hagree c).1, (hagree c).2.1, (hagree c).2.2.1, (hagree c).2.2.2]
  exact Cert.Gcn.layerAggProj_eq_layerProjAgg _ _ _ _ hn he hW

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
